-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S256x256 .f32) (main_arg7 : FVec F S256 .f32) (main_arg8 : FVec F S256x128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_v33

def fn {F : FTy → Type} [FloatOps F] (main_arg0 : FVec F S50000x256 .f32) (main_arg1 : FVec F S800000 .f32) (main_arg2 : IVec S800000 32) (main_arg3 : IVec S800000 32) (main_arg4 : FVec F S256x256 .f32) (main_arg5 : FVec F S256 .f32) (main_arg6 : FVec F S256x256 .f32) (main_arg7 : FVec F S256 .f32) (main_arg8 : FVec F S256x128 .f32) (main_arg9 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S5000x256 : Shape := ⟨2, ![5000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S50000x128 : Shape := ⟨2, ![50000, 128]⟩
abbrev S5000x128 : Shape := ⟨2, ![5000, 128]⟩
abbrev S800000x128 : Shape := ⟨2, ![800000, 128]⟩
abbrev S1x128 : Shape := ⟨2, ![1, 128]⟩

abbrev nBuf : Space → Nat
  | .hbm => 76
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S800000, .f32⟩
  | .hbm, ⟨2, _⟩ => ⟨S800000, .i32⟩
  | .hbm, ⟨3, _⟩ => ⟨S800000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S50000x256, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S800000x256, .f32⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S1x256, .f32⟩
  | .hbm, ⟨28, _⟩ => ⟨S50000x256, .f32⟩
  | .hbm, ⟨29, _⟩ => ⟨S50000x256, .f32⟩
  | .hbm, ⟨30, _⟩ => ⟨S_, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S800000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x256, .f32⟩
  | .hbm, ⟨44, _⟩ => ⟨S800000x256, .f32⟩
  | .hbm, ⟨45, _⟩ => ⟨S800000x256, .f32⟩
  | .hbm, ⟨46, _⟩ => ⟨S_, .f32⟩
  | .hbm, ⟨47, _⟩ => ⟨S50000x256, .f32⟩
  | .hbm, ⟨48, _⟩ => ⟨S800000x1, .i32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S50000x256, .f32⟩
  | .hbm, ⟨55, _⟩ => ⟨S50000x256, .f32⟩
  | .hbm, ⟨56, _⟩ => ⟨S50000x128, .f32⟩
  | .hbm, ⟨57, _⟩ => ⟨S800000x1, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S5000x128, .f32⟩
  | .local _ .vmem, ⟨14, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .f32⟩
  | .hbm, ⟨2, _⟩ => ⟨S800000, .i32⟩
  | .hbm, ⟨3, _⟩ => ⟨S800000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S50000x256, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S800000x256, .f32⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S1x256, .f32⟩
  | .hbm, ⟨28, _⟩ => ⟨S50000x256, .f32⟩
  | .hbm, ⟨29, _⟩ => ⟨S50000x256, .f32⟩
  | .hbm, ⟨30, _⟩ => ⟨S_, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S800000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x256, .f32⟩
  | .hbm, ⟨44, _⟩ => ⟨S800000x256, .f32⟩
  | .hbm, ⟨45, _⟩ => ⟨S800000x256, .f32⟩
  | .hbm, ⟨46, _⟩ => ⟨S_, .f32⟩
  | .hbm, ⟨47, _⟩ => ⟨S50000x256, .f32⟩
  | .hbm, ⟨48, _⟩ => ⟨S800000x1, .i32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S50000x256, .f32⟩
  | .hbm, ⟨55, _⟩ => ⟨S50000x256, .f32⟩
  | .hbm, ⟨56, _⟩ => ⟨S50000x128, .f32⟩
  | .hbm, ⟨57, _⟩ => ⟨S800000x1, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Network.lean ====
/-
  The three-layer graph convolution as one function of the argument arrays, at the ideal values.

  With x the 50000×256 node features, (adj, rows, cols) the 800000 weighted edges, and (W1, b1), (W2, b2), (W3, b3)
  the layers' weights and biases:

      aggregate t   =  the array with  out[rows[e], ·] += adj[e] · t[cols[e], ·]  over every edge e, from zero
                       (a column index below zero is first counted from the end, as jnp indexing does)
      hidden b t    =  max (aggregate t + b, 0)          (the bias added to every row)
      output b t    =  aggregate t + b
      network       =  output b3 (hidden b2 (hidden b1 (x · W1) · W2) · W3)

  Each is spelt with the host operations of the reference program, so that the reference's result is this function of
  its arguments by unfolding; the dense products are the plain products A · W (`DotDims.plain`), which the reference's
  own dimension records are.
-/
import proofs.«178316_j91250875171133_1_alg».proof.Proof.Gen.ReferenceIdeal
import Idealize.ShloMosaic.PureOps.Ideal

noncomputable section

namespace Cert.ReferenceIdeal.Network

open Cert.ReferenceIdeal Cert.ReferenceIdeal.Gen Idealize.ShloMosaic

/-- Node features of 256 and of 128 columns, an edge's weight, an edge's endpoint. -/
abbrev Feat256 := (⟨S50000x256, .f32⟩ : BufTy).Contents (Elt Ideal)
abbrev Feat128 := (⟨S50000x128, .f32⟩ : BufTy).Contents (Elt Ideal)
abbrev EdgeVal := (⟨S800000, .f32⟩ : BufTy).Contents (Elt Ideal)
abbrev EdgeIdx := (⟨S800000, .i32⟩ : BufTy).Contents (Elt Ideal)

/-- The column indices as the gather takes them: an index below zero has 50000 added, and the vector is laid as a column. -/
def wrapped (cols : EdgeIdx) : (⟨S800000x1, .i32⟩ : BufTy).Contents (Elt Ideal) :=
  broadcastInDim S800000x1 ![0] bcast_S800000_S800000x1_0
    (select (cmpi .slt cols (broadcastInDim S800000 ![] bcast_S_S800000 (constantI S_ 32 0#32)))
      (addi cols (broadcastInDim S800000 ![] bcast_S_S800000 (constantI S_ 32 50000#32))) cols)

/-- The sparse product with the adjacency, on 256 columns: each edge adds its weight times row cols[e] of t to row
    rows[e] of an array of zeros. -/
def aggregate256 (adj : EdgeVal) (rows cols : EdgeIdx) (t : Feat256) : Feat256 :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 rows)
    (mulf (broadcastInDim S800000x256 ![0, 1] bcast_S800000x1_S800000x256_0_1 (broadcastInDim S800000x1 ![0] bcast_S800000_S800000x1_0 adj))
      (Host.gather gather_S50000x256_S800000x1_S800000x256_1_0_n_n_0_1_1256 t (wrapped cols)))

/-- The same on 128 columns. -/
def aggregate128 (adj : EdgeVal) (rows cols : EdgeIdx) (t : Feat128) : Feat128 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 rows)
    (mulf (broadcastInDim S800000x128 ![0, 1] bcast_S800000x1_S800000x128_0_1 (broadcastInDim S800000x1 ![0] bcast_S800000_S800000x1_0 adj))
      (Host.gather gather_S50000x128_S800000x1_S800000x128_1_0_n_n_0_1_1128 t (wrapped cols)))

/-- A hidden layer after its dense product: aggregate, add the bias to every row, clamp below at zero. -/
def hidden (adj : EdgeVal) (rows cols : EdgeIdx) (b : (⟨S256, .f32⟩ : BufTy).Contents (Elt Ideal)) (t : Feat256) : Feat256 :=
  maximumf
    (addf (aggregate256 adj rows cols t)
      (broadcastInDim S50000x256 ![0, 1] bcast_S1x256_S50000x256_0_1 (broadcastInDim S1x256 ![1] bcast_S256_S1x256_1 b)))
    (broadcastInDim S50000x256 ![] bcast_S_S50000x256 (constant (F := Ideal) S_ .f32 0x00000000#32))

/-- The last layer after its dense product: aggregate and add the bias to every row. -/
def output (adj : EdgeVal) (rows cols : EdgeIdx) (b : (⟨S128, .f32⟩ : BufTy).Contents (Elt Ideal)) (t : Feat128) : Feat128 :=
  addf (F := Ideal) (φ := .f32) (aggregate128 adj rows cols t)
    (broadcastInDim S50000x128 ![0, 1] bcast_S1x128_S50000x128_0_1 (broadcastInDim S1x128 ![1] bcast_S128_S1x128_1 b))

/-- The dense products, as plain products A · W. -/
abbrev dense256 (A : Feat256) (W : (⟨S256x256, .f32⟩ : BufTy).Contents (Elt Ideal)) : Feat256 :=
  FloatOps.dotGeneral (F := Ideal) (φ₁ := .f32) (φ₂ := .f32) (DotDims.plain 50000 256 256) none .single A W
abbrev dense128 (A : Feat256) (W : (⟨S256x128, .f32⟩ : BufTy).Contents (Elt Ideal)) : Feat128 :=
  FloatOps.dotGeneral (F := Ideal) (φ₁ := .f32) (φ₂ := .f32) (DotDims.plain 50000 256 128) none .single A W

/-- The whole network. -/
def network (x : Feat256) (adj : EdgeVal) (rows cols : EdgeIdx)
    (W1 : (⟨S256x256, .f32⟩ : BufTy).Contents (Elt Ideal)) (b1 : (⟨S256, .f32⟩ : BufTy).Contents (Elt Ideal))
    (W2 : (⟨S256x256, .f32⟩ : BufTy).Contents (Elt Ideal)) (b2 : (⟨S256, .f32⟩ : BufTy).Contents (Elt Ideal))
    (W3 : (⟨S256x128, .f32⟩ : BufTy).Contents (Elt Ideal)) (b3 : (⟨S128, .f32⟩ : BufTy).Contents (Elt Ideal)) : Feat128 :=
  output adj rows cols b3 (dense128 (hidden adj rows cols b2 (dense256 (hidden adj rows cols b1 (dense256 x W1)) W2)) W3)

end Cert.ReferenceIdeal.Network

end
-- ==== Proof.KernelRun.lean ====
/-
  The idealized kernel's run, with every buffer named.

  @main is three pipelined regions among stretches of host operations. Run from any memory with zero counters, every
  weakly fair execution terminates without a fault, and in the final state every unscoped buffer of a core holds the
  contents the fold through @main gives it: a host stretch's buffers at its operations' values of the contents
  before it, a region's arrays at what its write-backs leave. In particular the result buffer holds the last
  stretch's value at it, and the argument buffers hold what they were launched with.
-/
import proofs.«178316_j91250875171133_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting, with every unscoped buffer of every core at the
    last boundary's contents. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result named: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v52) = W8 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c =>
      ⟨h c _ (mem_uc main_v52 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)
    (run_buffers m ρ)

end Cert.KernelIdeal.Run

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.LibRowBlockDot.lean ====
/-
  A row block of a matrix product, at the ideal values.

  For A of M×K and W of K×N the product A · W has at (r, q) the entry  ∑ c < K, A (r, c) · W (c, q):  row r of the
  product depends on row r of A only. So if X (B×K) holds row r of A as its row p — X (p, ·) = A (r, ·) — and W'
  agrees with W on column q, then the product X · W' accumulated onto the zero splat has at (p, q) the entry of
  A · W at (r, q). A product computed one tile of rows at a time is the product. This holds on the extended reals
  with no finiteness: the two sides are the same finite sum of the same products.
-/
import proofs.«178316_j91250875171133_1_alg».proof.Proof.LibMatmulNN

noncomputable section

open scoped BigOperators

namespace Idealize.ShloMosaic.RowBlockDot

open Idealize.ShloMosaic Idealize.ShloMosaic.ValueIdx

variable {M K N : Nat}

/-- The host's A · W (contracting axis 1 of A with axis 0 of W, no batch axis) at (a, b): the sum over the contracted
    coordinate of A (a, c) · W (c, b), whatever the precision and the schedule key. -/
theorem dotGeneral_apply {φ₁ φ₂ : FTy} (prec : Option ContractPrecision) (sched : HostSchedule)
    (A : FVec Ideal ⟨2, ![M, K]⟩ φ₁) (W : FVec Ideal ⟨2, ![K, N]⟩ φ₂) (a : Fin M) (b : Fin N) :
    FloatOps.dotGeneral (DotDims.plain M K N) prec sched A W (ix2 a b) = ∑ c : Fin K, A (ix2 a c) * W (ix2 c b) := by
  rw [Ideal.dotGeneral_apply, ← Equiv.sum_comp (contrEquiv1 (DotDims.plain M K N) K rfl rfl).symm]
  refine Finset.sum_congr rfl fun c _ => ?_
  rw [MatmulNN.lhsIdx_plain, MatmulNN.rhsIdx_plain]

/-- A tile of rows times the right operand, into the zero splat, read at (p, q), is the whole product at (r, q) when
    row p of the tile is row r of the whole left operand and the two right operands agree on column q. -/
theorem matmul_rowBlock {B : Nat} {φ₁ φ₂ ψ₁ ψ₂ : FTy} (prec prec' : Option ContractPrecision) (sched : HostSchedule)
    (A : FVec Ideal ⟨2, ![M, K]⟩ φ₁) (W : FVec Ideal ⟨2, ![K, N]⟩ φ₂)
    (X : FVec Ideal ⟨2, ![B, K]⟩ ψ₁) (W' : FVec Ideal ⟨2, ![K, N]⟩ ψ₂) (p : Fin B) (q : Fin N) (r : Fin M)
    (hX : ∀ c : Fin K, X (ix2 p c) = A (ix2 r c)) (hW : ∀ c : Fin K, W' (ix2 c q) = W (ix2 c q)) :
    FloatOps.matmul (DotDims.plain B K N) prec X W' (constant ⟨2, ![B, N]⟩ .f32 0x00000000#32) (ix2 p q)
      = FloatOps.dotGeneral (DotDims.plain M K N) prec' sched A W (ix2 r q) := by
  rw [MatmulNN.matmul_zero_apply, dotGeneral_apply]
  exact Finset.sum_congr rfl fun c _ => by rw [hX c, hW c]

end Idealize.ShloMosaic.RowBlockDot

end
-- ==== Proof.TiledProduct0.lean ====
/-
  Region 0's tiled product is the whole product.

  The region's grid has ten points. At point t the body loads rows 5000·t … 5000·t + 4999 of the left operand (a
  50000×256 array) and the whole 256×256 right operand, multiplies the tile by the right operand into a zero
  accumulator (the two roundings to bf16 on the way in are the identity at the ideal values), and stores the
  5000×256 result as rows 5000·t … 5000·t + 4999 of the output. Row r of a product depends only on row r of the
  left operand, so what point t writes back is its block of the whole product A · W; the ten blocks cover the
  output's rows (row r lies in block r / 5000), so the output array ends holding A · W.
-/
import proofs.«178316_j91250875171133_1_alg».proof.Proof.Gen.KernelIdeal.Frame
import proofs.«178316_j91250875171133_1_alg».proof.Proof.LibRowBlockDot
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Tiled0

open Cert.KernelIdeal Cert.KernelIdeal.Gen

/-- The all-zero offset of a whole-block access. -/
theorem hz : (![0, 0] : Fin 2 → Nat) = fun _ => 0 := funext fun a => by fin_cases a <;> rfl

/-- The whole product A · W of a 50000×256 array by a 256×256 array, on the extended reals. -/
abbrev product (A : FVec Ideal ⟨2, ![50000, 256]⟩ .f32) (W : FVec Ideal ⟨2, ![256, 256]⟩ .f32) : FVec Ideal ⟨2, ![50000, 256]⟩ .f32 :=
  FloatOps.dotGeneral (DotDims.plain 50000 256 256) none .single A W

/-- The body's stored value at (p, q), when row p of the loaded tile is row r of A and the loaded right operand is W
    on column q: the whole product at (r, q). -/
theorem payload_apply (x0 : Vec Ideal S5000x256 .f32) (x1 : Vec Ideal S256x256 .f32)
    (A : FVec Ideal ⟨2, ![50000, 256]⟩ .f32) (W : FVec Ideal ⟨2, ![256, 256]⟩ .f32)
    (p : Fin 5000) (q : Fin 256) (r : Fin 50000)
    (hx : ∀ k : Fin 256, x0 (ix2 p k) = A (ix2 r k)) (hw : ∀ k : Fin 256, x1 (ix2 k q) = W (ix2 k q)) :
    k0_pay1 (F := Ideal) x0 x1 (ix2 p q) = product A W (ix2 r q) := by
  unfold k0_pay1
  exact RowBlockDot.matmul_rowBlock none none .single A W _ _ p q r hx hw

variable (V : (c : Dev nD) → (b : Ref sig .tc) → Buf (Elt Ideal) ((c : Thread nD τ).loc b))

/-- The printed index maps over the grid: the left operand's and the output's block at point t is block row t, the
    right operand's is the one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region finds. -/
theorem flushed_eq (c : Dev nD) (t : Fin cfg0.N) :
    (dat0 (F := Ideal) V c).flushed 2 t
      = ((cfg0.win 2).blk t).view.read (Elt Ideal) (product (V c main_arg0) (V c main_arg4)) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x256) hz]
  obtain ⟨e00, e01, e10, e11, e20, e21⟩ := index_maps t
  have ht : t.val < 10 := lt_of_lt_of_eq t.isLt N_0
  funext j
  show k0_pay1 (F := Ideal) (iblk0 V c 0 t) (iblk0 V c 1 t) j = product (V c main_arg0) (V c main_arg4) (((cfg0.win 2).blk t).view.emb j)
  obtain ⟨p, q, rfl⟩ : ∃ (p : Fin 5000) (q : Fin 256), j = ix2 p q := ⟨j 0, j 1, eq_ix2 j⟩
  have hp : p.val < 5000 := p.isLt
  refine (payload_apply (iblk0 V c 0 t) (iblk0 V c 1 t) (V c main_arg0) (V c main_arg4) p q ⟨5000 * t.val + p.val, by omega⟩ ?_ ?_).trans ?_
  · intro k
    unfold iblk0
    rw [View.read_apply]
    show V c main_arg0 (((cfg0.win 0).blk t).view.emb (ix2 p k)) = V c main_arg0 _
    refine congrArg (V c main_arg0) ?_
    funext a; apply Fin.ext
    match a with
    | ⟨0, _⟩ => show win0_0.index t (0 : Fin 2) * 5000 + 1 * p.val = 5000 * t.val + p.val; omega
    | ⟨1, _⟩ => show win0_0.index t (1 : Fin 2) * 256 + 1 * k.val = k.val; omega
  · intro k
    unfold iblk0
    rw [View.read_apply]
    show V c main_arg4 (((cfg0.win 1).blk t).view.emb (ix2 k q)) = V c main_arg4 _
    refine congrArg (V c main_arg4) ?_
    funext a; apply Fin.ext
    match a with
    | ⟨0, _⟩ => show win0_1.index t (0 : Fin 2) * 256 + 1 * k.val = k.val; omega
    | ⟨1, _⟩ => show win0_1.index t (1 : Fin 2) * 256 + 1 * q.val = q.val; omega
  · refine congrArg (product (V c main_arg0) (V c main_arg4)) ?_
    funext a; apply Fin.ext
    match a with
    | ⟨0, _⟩ => show 5000 * t.val + p.val = win0_2.index t (0 : Fin 2) * 5000 + 1 * p.val; omega
    | ⟨1, _⟩ => show q.val = win0_2.index t (1 : Fin 2) * 256 + 1 * q.val; omega

/-- An index of the output array is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v0).slice (win0_2.rect t)).set ↔ _
  rw [View.set_slice_whole, Rect.mem_set_unit]
  exact Iff.rfl

/-- Every block row is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- The ten blocks cover the output array: row r lies in block row r / 5000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The output array after the region: the whole product of the two input arrays as the region finds them. -/
theorem final (c : Dev nD) :
    (dat0 (F := Ideal) V c).arrAt 2 cfg0.N = product (V c main_arg0) (V c main_arg4) :=
  (dat0 (F := Ideal) V c).arrAt_eq_of_cover 2 (product (V c main_arg0) (V c main_arg4)) (fun t _ => flushed_eq V c t) cover

end Cert.KernelIdeal.Tiled0

end
-- ==== Proof.TiledProduct1.lean ====
/-
  Region 1's tiled product is the whole product.

  The region's grid has ten points. At point t the body loads rows 5000·t … 5000·t + 4999 of the left operand (a
  50000×256 array) and the whole 256×256 right operand, multiplies the tile by the right operand into a zero
  accumulator (the cast of the tile to its own shape and the two roundings to bf16 on the way in are the identity at
  the ideal values), and stores the 5000×256 result as rows 5000·t … 5000·t + 4999 of the output. Row r of a product depends only on row r of the
  left operand, so what point t writes back is its block of the whole product A · W; the ten blocks cover the
  output's rows (row r lies in block r / 5000), so the output array ends holding A · W.
-/
import proofs.«178316_j91250875171133_1_alg».proof.Proof.Gen.KernelIdeal.Frame
import proofs.«178316_j91250875171133_1_alg».proof.Proof.LibRowBlockDot
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Tiled1

open Cert.KernelIdeal Cert.KernelIdeal.Gen

/-- The all-zero offset of a whole-block access. -/
theorem hz : (![0, 0] : Fin 2 → Nat) = fun _ => 0 := funext fun a => by fin_cases a <;> rfl

/-- The whole product A · W of a 50000×256 array by a 256×256 array, on the extended reals. -/
abbrev product (A : FVec Ideal ⟨2, ![50000, 256]⟩ .f32) (W : FVec Ideal ⟨2, ![256, 256]⟩ .f32) : FVec Ideal ⟨2, ![50000, 256]⟩ .f32 :=
  FloatOps.dotGeneral (DotDims.plain 50000 256 256) none .single A W

/-- The body's stored value at (p, q), when row p of the loaded tile is row r of A and the loaded right operand is W
    on column q: the whole product at (r, q). -/
theorem payload_apply (x0 : Vec Ideal S5000x256 .f32) (x1 : Vec Ideal S256x256 .f32)
    (A : FVec Ideal ⟨2, ![50000, 256]⟩ .f32) (W : FVec Ideal ⟨2, ![256, 256]⟩ .f32)
    (p : Fin 5000) (q : Fin 256) (r : Fin 50000)
    (hx : ∀ k : Fin 256, x0 (ix2 p k) = A (ix2 r k)) (hw : ∀ k : Fin 256, x1 (ix2 k q) = W (ix2 k q)) :
    k1_pay1 (F := Ideal) x0 x1 (ix2 p q) = product A W (ix2 r q) := by
  unfold k1_pay1
  simp only [shapeCast_self]
  exact RowBlockDot.matmul_rowBlock none none .single A W _ _ p q r hx hw

variable (V : (c : Dev nD) → (b : Ref sig .tc) → Buf (Elt Ideal) ((c : Thread nD τ).loc b))

/-- The printed index maps over the grid: the left operand's and the output's block at point t is block row t, the
    right operand's is the one block. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the arrays the region finds. -/
theorem flushed_eq (c : Dev nD) (t : Fin cfg1.N) :
    (dat1 (F := Ideal) V c).flushed 2 t
      = ((cfg1.win 2).blk t).view.read (Elt Ideal) (product (V c main_v17) (V c main_arg6)) := by
  show (cfg1.win 2).cut (grid1.coords t) ((dat1 (F := Ideal) V c).after 2 t) = _
  rw [after1_2]
  unfold out1_2
  rw [View.canon_unit_zero hz]
  simp only [View.ld_unit_zero (S := S5000x256) hz, View.ld_unit_zero (S := S256x256) hz]
  obtain ⟨e00, e01, e10, e11, e20, e21⟩ := index_maps t
  have ht : t.val < 10 := lt_of_lt_of_eq t.isLt N_1
  funext j
  show k1_pay1 (F := Ideal) (iblk1 V c 0 t) (iblk1 V c 1 t) j = product (V c main_v17) (V c main_arg6) (((cfg1.win 2).blk t).view.emb j)
  obtain ⟨p, q, rfl⟩ : ∃ (p : Fin 5000) (q : Fin 256), j = ix2 p q := ⟨j 0, j 1, eq_ix2 j⟩
  have hp : p.val < 5000 := p.isLt
  refine (payload_apply (iblk1 V c 0 t) (iblk1 V c 1 t) (V c main_v17) (V c main_arg6) p q ⟨5000 * t.val + p.val, by omega⟩ ?_ ?_).trans ?_
  · intro k
    unfold iblk1
    rw [View.read_apply]
    show V c main_v17 (((cfg1.win 0).blk t).view.emb (ix2 p k)) = V c main_v17 _
    refine congrArg (V c main_v17) ?_
    funext a; apply Fin.ext
    match a with
    | ⟨0, _⟩ => show win1_0.index t (0 : Fin 2) * 5000 + 1 * p.val = 5000 * t.val + p.val; omega
    | ⟨1, _⟩ => show win1_0.index t (1 : Fin 2) * 256 + 1 * k.val = k.val; omega
  · intro k
    unfold iblk1
    rw [View.read_apply]
    show V c main_arg6 (((cfg1.win 1).blk t).view.emb (ix2 k q)) = V c main_arg6 _
    refine congrArg (V c main_arg6) ?_
    funext a; apply Fin.ext
    match a with
    | ⟨0, _⟩ => show win1_1.index t (0 : Fin 2) * 256 + 1 * k.val = k.val; omega
    | ⟨1, _⟩ => show win1_1.index t (1 : Fin 2) * 256 + 1 * q.val = q.val; omega
  · refine congrArg (product (V c main_v17) (V c main_arg6)) ?_
    funext a; apply Fin.ext
    match a with
    | ⟨0, _⟩ => show 5000 * t.val + p.val = win1_2.index t (0 : Fin 2) * 5000 + 1 * p.val; omega
    | ⟨1, _⟩ => show q.val = win1_2.index t (1 : Fin 2) * 256 + 1 * q.val; omega

/-- An index of the output array is in point t's block iff each coordinate is in the block's range on its axis. -/
theorem mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v18).slice (win1_2.rect t)).set ↔ _
  rw [View.set_slice_whole, Rect.mem_set_unit]
  exact Iff.rfl

/-- Every block row is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- The ten blocks cover the output array: row r lies in block row r / 5000. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The output array after the region: the whole product of the two input arrays as the region finds them. -/
theorem final (c : Dev nD) :
    (dat1 (F := Ideal) V c).arrAt 2 cfg1.N = product (V c main_v17) (V c main_arg6) :=
  (dat1 (F := Ideal) V c).arrAt_eq_of_cover 2 (product (V c main_v17) (V c main_arg6)) (fun t _ => flushed_eq V c t) cover

end Cert.KernelIdeal.Tiled1

end
-- ==== Proof.TiledProduct2.lean ====
/-
  Region 2's tiled product is the whole product.

  The region's grid has ten points. At point t the body loads rows 5000·t … 5000·t + 4999 of the left operand (a
  50000×256 array) and the whole 256×128 right operand, multiplies the tile by the right operand into a zero
  accumulator (the cast of the tile to its own shape and the two roundings to bf16 on the way in are the identity at
  the ideal values), and stores the 5000×128 result as rows 5000·t … 5000·t + 4999 of the output. Row r of a product depends only on row r of the
  left operand, so what point t writes back is its block of the whole product A · W; the ten blocks cover the
  output's rows (row r lies in block r / 5000), so the output array ends holding A · W.
-/
import proofs.«178316_j91250875171133_1_alg».proof.Proof.Gen.KernelIdeal.Frame
import proofs.«178316_j91250875171133_1_alg».proof.Proof.LibRowBlockDot
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Tiled2

open Cert.KernelIdeal Cert.KernelIdeal.Gen

/-- The all-zero offset of a whole-block access. -/
theorem hz : (![0, 0] : Fin 2 → Nat) = fun _ => 0 := funext fun a => by fin_cases a <;> rfl

/-- The whole product A · W of a 50000×256 array by a 256×128 array, on the extended reals. -/
abbrev product (A : FVec Ideal ⟨2, ![50000, 256]⟩ .f32) (W : FVec Ideal ⟨2, ![256, 128]⟩ .f32) : FVec Ideal ⟨2, ![50000, 128]⟩ .f32 :=
  FloatOps.dotGeneral (DotDims.plain 50000 256 128) none .single A W

/-- The body's stored value at (p, q), when row p of the loaded tile is row r of A and the loaded right operand is W
    on column q: the whole product at (r, q). -/
theorem payload_apply (x0 : Vec Ideal S5000x256 .f32) (x1 : Vec Ideal S256x128 .f32)
    (A : FVec Ideal ⟨2, ![50000, 256]⟩ .f32) (W : FVec Ideal ⟨2, ![256, 128]⟩ .f32)
    (p : Fin 5000) (q : Fin 128) (r : Fin 50000)
    (hx : ∀ k : Fin 256, x0 (ix2 p k) = A (ix2 r k)) (hw : ∀ k : Fin 256, x1 (ix2 k q) = W (ix2 k q)) :
    k2_pay1 (F := Ideal) x0 x1 (ix2 p q) = product A W (ix2 r q) := by
  unfold k2_pay1
  simp only [shapeCast_self]
  exact RowBlockDot.matmul_rowBlock none none .single A W _ _ p q r hx hw

variable (V : (c : Dev nD) → (b : Ref sig .tc) → Buf (Elt Ideal) ((c : Thread nD τ).loc b))

/-- The printed index maps over the grid: the left operand's and the output's block at point t is block row t, the
    right operand's is the one block. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the arrays the region finds. -/
theorem flushed_eq (c : Dev nD) (t : Fin cfg2.N) :
    (dat2 (F := Ideal) V c).flushed 2 t
      = ((cfg2.win 2).blk t).view.read (Elt Ideal) (product (V c main_v35) (V c main_arg8)) := by
  show (cfg2.win 2).cut (grid2.coords t) ((dat2 (F := Ideal) V c).after 2 t) = _
  rw [after2_2]
  unfold out2_2
  rw [View.canon_unit_zero hz]
  simp only [View.ld_unit_zero (S := S5000x256) hz, View.ld_unit_zero (S := S256x128) hz]
  obtain ⟨e00, e01, e10, e11, e20, e21⟩ := index_maps t
  have ht : t.val < 10 := lt_of_lt_of_eq t.isLt N_2
  funext j
  show k2_pay1 (F := Ideal) (iblk2 V c 0 t) (iblk2 V c 1 t) j = product (V c main_v35) (V c main_arg8) (((cfg2.win 2).blk t).view.emb j)
  obtain ⟨p, q, rfl⟩ : ∃ (p : Fin 5000) (q : Fin 128), j = ix2 p q := ⟨j 0, j 1, eq_ix2 j⟩
  have hp : p.val < 5000 := p.isLt
  refine (payload_apply (iblk2 V c 0 t) (iblk2 V c 1 t) (V c main_v35) (V c main_arg8) p q ⟨5000 * t.val + p.val, by omega⟩ ?_ ?_).trans ?_
  · intro k
    unfold iblk2
    rw [View.read_apply]
    show V c main_v35 (((cfg2.win 0).blk t).view.emb (ix2 p k)) = V c main_v35 _
    refine congrArg (V c main_v35) ?_
    funext a; apply Fin.ext
    match a with
    | ⟨0, _⟩ => show win2_0.index t (0 : Fin 2) * 5000 + 1 * p.val = 5000 * t.val + p.val; omega
    | ⟨1, _⟩ => show win2_0.index t (1 : Fin 2) * 256 + 1 * k.val = k.val; omega
  · intro k
    unfold iblk2
    rw [View.read_apply]
    show V c main_arg8 (((cfg2.win 1).blk t).view.emb (ix2 k q)) = V c main_arg8 _
    refine congrArg (V c main_arg8) ?_
    funext a; apply Fin.ext
    match a with
    | ⟨0, _⟩ => show win2_1.index t (0 : Fin 2) * 256 + 1 * k.val = k.val; omega
    | ⟨1, _⟩ => show win2_1.index t (1 : Fin 2) * 128 + 1 * q.val = q.val; omega
  · refine congrArg (product (V c main_v35) (V c main_arg8)) ?_
    funext a; apply Fin.ext
    match a with
    | ⟨0, _⟩ => show 5000 * t.val + p.val = win2_2.index t (0 : Fin 2) * 5000 + 1 * p.val; omega
    | ⟨1, _⟩ => show q.val = win2_2.index t (1 : Fin 2) * 128 + 1 * q.val; omega

/-- An index of the output array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v36).slice (win2_2.rect t)).set ↔ _
  rw [View.set_slice_whole, Rect.mem_set_unit]
  exact Iff.rfl

/-- Every block row is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- The ten blocks cover the output array: row r lies in block row r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the whole product of the two input arrays as the region finds them. -/
theorem final (c : Dev nD) :
    (dat2 (F := Ideal) V c).arrAt 2 cfg2.N = product (V c main_v35) (V c main_arg8) :=
  (dat2 (F := Ideal) V c).arrAt_eq_of_cover 2 (product (V c main_v35) (V c main_arg8)) (fun t _ => flushed_eq V c t) cover

end Cert.KernelIdeal.Tiled2

end
-- ==== Proof.KernelLayers.lean ====
/-
  The idealized kernel's result, boundary by boundary.

  @main alternates three pipelined dense products with stretches of host operations. Reading the buffer contents at
  each boundary in turn: after region 0 the product buffer holds x · W1 (the tiled product is the whole product); the
  host stretch after it leaves  h1 = hidden b1 (x · W1);  region 1 leaves  h1 · W2;  the next stretch
  h2 = hidden b2 (h1 · W2);  region 2 leaves  h2 · W3;  and the last stretch leaves  output b3 (h2 · W3),  which is
  the network of the argument arrays. No region and no host operation writes an argument buffer, so at every
  boundary each argument still holds what it was launched with.

  A host stretch is first read at ARBITRARY contents W of the buffers before it — its result buffer is the layer's
  operations of W at the buffers it reads, an argument's buffer is W there — and only then is W taken to be the
  contents the previous region leaves.
-/
import proofs.«178316_j91250875171133_1_alg».proof.Proof.Gen.KernelIdeal.Frame
import proofs.«178316_j91250875171133_1_alg».proof.Proof.TiledProduct0
import proofs.«178316_j91250875171133_1_alg».proof.Proof.TiledProduct1
import proofs.«178316_j91250875171133_1_alg».proof.Proof.TiledProduct2
import proofs.«178316_j91250875171133_1_alg».proof.Proof.Network
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo
open Cert.ReferenceIdeal.Network (hidden output network dense256 dense128)

/-! ## The layers' host operations, spelt with the kernel program's own shape and dimension records -/

/-- The column indices as the gather takes them: an index below zero has 50000 added, and the vector is laid as a column. -/
def wrappedK (cols : (⟨S800000, .i32⟩ : BufTy).Contents (Elt Ideal)) : (⟨S800000x1, .i32⟩ : BufTy).Contents (Elt Ideal) :=
  broadcastInDim S800000x1 ![0] bcast_S800000_S800000x1_0
    (select (cmpi .slt cols (broadcastInDim S800000 ![] bcast_S_S800000 (constantI S_ 32 0#32)))
      (addi cols (broadcastInDim S800000 ![] bcast_S_S800000 (constantI S_ 32 50000#32))) cols)

/-- Aggregation over the edges, add the bias to every row, clamp below at zero: a hidden layer after its dense product. -/
def hiddenK (adj : (⟨S800000, .f32⟩ : BufTy).Contents (Elt Ideal)) (rows cols : (⟨S800000, .i32⟩ : BufTy).Contents (Elt Ideal))
    (b : (⟨S256, .f32⟩ : BufTy).Contents (Elt Ideal)) (t : (⟨S50000x256, .f32⟩ : BufTy).Contents (Elt Ideal)) :
    (⟨S50000x256, .f32⟩ : BufTy).Contents (Elt Ideal) :=
  maximumf
    (addf
      (Host.scatterAdd (F := Ideal) scatter_S50000x256_S800000x1_S800000x256_1_0_0_1
        (broadcastInDim S50000x256 ![] bcast_S_S50000x256 (constant (F := Ideal) S_ .f32 0x00000000#32))
        (broadcastInDim S800000x1 ![0] bcast_S800000_S800000x1_0 rows)
        (mulf (broadcastInDim S800000x256 ![0, 1] bcast_S800000x1_S800000x256_0_1 (broadcastInDim S800000x1 ![0] bcast_S800000_S800000x1_0 adj))
          (Host.gather gather_S50000x256_S800000x1_S800000x256_1_0_n_n_0_1_1256 t (wrappedK cols))))
      (broadcastInDim S50000x256 ![0, 1] bcast_S1x256_S50000x256_0_1 (broadcastInDim S1x256 ![1] bcast_S256_S1x256_1 b)))
    (broadcastInDim S50000x256 ![] bcast_S_S50000x256 (constant (F := Ideal) S_ .f32 0x00000000#32))

/-- Aggregation over the edges and the bias added to every row: the last layer after its dense product. -/
def outputK (adj : (⟨S800000, .f32⟩ : BufTy).Contents (Elt Ideal)) (rows cols : (⟨S800000, .i32⟩ : BufTy).Contents (Elt Ideal))
    (b : (⟨S128, .f32⟩ : BufTy).Contents (Elt Ideal)) (t : (⟨S50000x128, .f32⟩ : BufTy).Contents (Elt Ideal)) :
    (⟨S50000x128, .f32⟩ : BufTy).Contents (Elt Ideal) :=
  addf (F := Ideal) (φ := .f32)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 rows)
      (mulf (broadcastInDim S800000x128 ![0, 1] bcast_S800000x1_S800000x128_0_1 (broadcastInDim S800000x1 ![0] bcast_S800000_S800000x1_0 adj))
        (Host.gather gather_S50000x128_S800000x1_S800000x128_1_0_n_n_0_1_1128 t (wrappedK cols))))
    (broadcastInDim S50000x128 ![0, 1] bcast_S1x128_S50000x128_0_1 (broadcastInDim S1x128 ![1] bcast_S128_S1x128_1 b))

/-- The kernel's spelling and the reference's are one function: the two programs' shape and dimension records are
    the same records. -/
theorem hiddenK_eq (adj : (⟨S800000, .f32⟩ : BufTy).Contents (Elt Ideal)) (rows cols : (⟨S800000, .i32⟩ : BufTy).Contents (Elt Ideal))
    (b : (⟨S256, .f32⟩ : BufTy).Contents (Elt Ideal)) (t : (⟨S50000x256, .f32⟩ : BufTy).Contents (Elt Ideal)) :
    hiddenK adj rows cols b t = hidden adj rows cols b t := rfl

theorem outputK_eq (adj : (⟨S800000, .f32⟩ : BufTy).Contents (Elt Ideal)) (rows cols : (⟨S800000, .i32⟩ : BufTy).Contents (Elt Ideal))
    (b : (⟨S128, .f32⟩ : BufTy).Contents (Elt Ideal)) (t : (⟨S50000x128, .f32⟩ : BufTy).Contents (Elt Ideal)) :
    outputK adj rows cols b t = output adj rows cols b t := rfl

/-! ## The host stretches, read at arbitrary contents of the buffers before them -/

section Stretches

variable (W : Valuation τ sig (Elt Ideal))

/-- The first layer's nineteen operations: the buffer they end in holds the aggregation of the product buffer plus the bias. -/
theorem layer1 : StableHlo.after hostOps1 W (Proc.devRef .tc main_v16)
    = addf (F := Ideal) (φ := .f32)
      (Host.scatterAdd (F := Ideal) scatter_S50000x256_S800000x1_S800000x256_1_0_0_1
        (broadcastInDim S50000x256 ![] bcast_S_S50000x256 (constant (F := Ideal) S_ .f32 0x00000000#32))
        (broadcastInDim S800000x1 ![0] bcast_S800000_S800000x1_0 (W (Proc.devRef .tc main_arg2)))
        (mulf (broadcastInDim S800000x256 ![0, 1] bcast_S800000x1_S800000x256_0_1 (broadcastInDim S800000x1 ![0] bcast_S800000_S800000x1_0 (W (Proc.devRef .tc main_arg1))))
          (Host.gather gather_S50000x256_S800000x1_S800000x256_1_0_n_n_0_1_1256 (W (Proc.devRef .tc main_v0)) (wrappedK (W (Proc.devRef .tc main_arg3))))))
      (broadcastInDim S50000x256 ![0, 1] bcast_S1x256_S50000x256_0_1 (broadcastInDim S1x256 ![1] bcast_S256_S1x256_1 (W (Proc.devRef .tc main_arg5)))) := by
  after_results_simp; rfl

/-- The clamp after the first layer (three operations): the maximum of what the layer left and the zero splat. -/
theorem clamp1 : StableHlo.after hostOps1_1 W (Proc.devRef .tc main_v17)
    = maximumf (F := Ideal) (φ := .f32) (W (Proc.devRef .tc main_v16))
        (broadcastInDim S50000x256 ![] bcast_S_S50000x256 (constant (F := Ideal) S_ .f32 0x00000000#32)) := by
  after_results_simp; rfl

/-- The first stretch (the layer's operations, then the clamp): its result buffer. -/
theorem stretch1_hidden : StableHlo.after hostOps1_1 (StableHlo.after hostOps1 W) (Proc.devRef .tc main_v17)
    = hiddenK (W (Proc.devRef .tc main_arg1)) (W (Proc.devRef .tc main_arg2)) (W (Proc.devRef .tc main_arg3))
        (W (Proc.devRef .tc main_arg5)) (W (Proc.devRef .tc main_v0)) := by
  rw [clamp1 (StableHlo.after hostOps1 W), layer1 W]; rfl

/-- The first stretch writes no argument. -/
theorem stretch1_arg1 : StableHlo.after hostOps1_1 (StableHlo.after hostOps1 W) (Proc.devRef .tc main_arg1) = W (Proc.devRef .tc main_arg1) := by after_results_simp
theorem stretch1_arg2 : StableHlo.after hostOps1_1 (StableHlo.after hostOps1 W) (Proc.devRef .tc main_arg2) = W (Proc.devRef .tc main_arg2) := by after_results_simp
theorem stretch1_arg3 : StableHlo.after hostOps1_1 (StableHlo.after hostOps1 W) (Proc.devRef .tc main_arg3) = W (Proc.devRef .tc main_arg3) := by after_results_simp
theorem stretch1_arg6 : StableHlo.after hostOps1_1 (StableHlo.after hostOps1 W) (Proc.devRef .tc main_arg6) = W (Proc.devRef .tc main_arg6) := by after_results_simp
theorem stretch1_arg7 : StableHlo.after hostOps1_1 (StableHlo.after hostOps1 W) (Proc.devRef .tc main_arg7) = W (Proc.devRef .tc main_arg7) := by after_results_simp
theorem stretch1_arg8 : StableHlo.after hostOps1_1 (StableHlo.after hostOps1 W) (Proc.devRef .tc main_arg8) = W (Proc.devRef .tc main_arg8) := by after_results_simp
theorem stretch1_arg9 : StableHlo.after hostOps1_1 (StableHlo.after hostOps1 W) (Proc.devRef .tc main_arg9) = W (Proc.devRef .tc main_arg9) := by after_results_simp

/-- The second layer's nineteen operations. -/
theorem layer2 : StableHlo.after hostOps2 W (Proc.devRef .tc main_v34)
    = addf (F := Ideal) (φ := .f32)
      (Host.scatterAdd (F := Ideal) scatter_S50000x256_S800000x1_S800000x256_1_0_0_1
        (broadcastInDim S50000x256 ![] bcast_S_S50000x256 (constant (F := Ideal) S_ .f32 0x00000000#32))
        (broadcastInDim S800000x1 ![0] bcast_S800000_S800000x1_0 (W (Proc.devRef .tc main_arg2)))
        (mulf (broadcastInDim S800000x256 ![0, 1] bcast_S800000x1_S800000x256_0_1 (broadcastInDim S800000x1 ![0] bcast_S800000_S800000x1_0 (W (Proc.devRef .tc main_arg1))))
          (Host.gather gather_S50000x256_S800000x1_S800000x256_1_0_n_n_0_1_1256 (W (Proc.devRef .tc main_v18)) (wrappedK (W (Proc.devRef .tc main_arg3))))))
      (broadcastInDim S50000x256 ![0, 1] bcast_S1x256_S50000x256_0_1 (broadcastInDim S1x256 ![1] bcast_S256_S1x256_1 (W (Proc.devRef .tc main_arg7)))) := by
  after_results_simp; rfl

/-- The clamp after the second layer. -/
theorem clamp2 : StableHlo.after hostOps2_1 W (Proc.devRef .tc main_v35)
    = maximumf (F := Ideal) (φ := .f32) (W (Proc.devRef .tc main_v34))
        (broadcastInDim S50000x256 ![] bcast_S_S50000x256 (constant (F := Ideal) S_ .f32 0x00000000#32)) := by
  after_results_simp; rfl

/-- The second stretch: its result buffer. -/
theorem stretch2_hidden : StableHlo.after hostOps2_1 (StableHlo.after hostOps2 W) (Proc.devRef .tc main_v35)
    = hiddenK (W (Proc.devRef .tc main_arg1)) (W (Proc.devRef .tc main_arg2)) (W (Proc.devRef .tc main_arg3))
        (W (Proc.devRef .tc main_arg7)) (W (Proc.devRef .tc main_v18)) := by
  rw [clamp2 (StableHlo.after hostOps2 W), layer2 W]; rfl

/-- The second stretch writes no argument. -/
theorem stretch2_arg1 : StableHlo.after hostOps2_1 (StableHlo.after hostOps2 W) (Proc.devRef .tc main_arg1) = W (Proc.devRef .tc main_arg1) := by after_results_simp
theorem stretch2_arg2 : StableHlo.after hostOps2_1 (StableHlo.after hostOps2 W) (Proc.devRef .tc main_arg2) = W (Proc.devRef .tc main_arg2) := by after_results_simp
theorem stretch2_arg3 : StableHlo.after hostOps2_1 (StableHlo.after hostOps2 W) (Proc.devRef .tc main_arg3) = W (Proc.devRef .tc main_arg3) := by after_results_simp
theorem stretch2_arg8 : StableHlo.after hostOps2_1 (StableHlo.after hostOps2 W) (Proc.devRef .tc main_arg8) = W (Proc.devRef .tc main_arg8) := by after_results_simp
theorem stretch2_arg9 : StableHlo.after hostOps2_1 (StableHlo.after hostOps2 W) (Proc.devRef .tc main_arg9) = W (Proc.devRef .tc main_arg9) := by after_results_simp

/-- The last stretch: the result buffer. -/
theorem stretch3_output : StableHlo.after hostOps3 W (Proc.devRef .tc main_v52)
    = outputK (W (Proc.devRef .tc main_arg1)) (W (Proc.devRef .tc main_arg2)) (W (Proc.devRef .tc main_arg3))
        (W (Proc.devRef .tc main_arg9)) (W (Proc.devRef .tc main_v36)) := by
  after_results_simp; rfl

end Stretches

variable (m : (ℓ : Loc nD τ sig) → Buf (Elt Ideal) ℓ) (ρ : Dev nD → PrngReg) (c : Dev nD)

/-! ## After region 0 -/

theorem at1_arg1 : W1 m ρ c (Proc.devRef .tc main_arg1) = m ((c : Thread nD τ).loc main_arg1) := W1_of_ne m ρ c main_arg1 (by decide)
theorem at1_arg2 : W1 m ρ c (Proc.devRef .tc main_arg2) = m ((c : Thread nD τ).loc main_arg2) := W1_of_ne m ρ c main_arg2 (by decide)
theorem at1_arg3 : W1 m ρ c (Proc.devRef .tc main_arg3) = m ((c : Thread nD τ).loc main_arg3) := W1_of_ne m ρ c main_arg3 (by decide)
theorem at1_arg5 : W1 m ρ c (Proc.devRef .tc main_arg5) = m ((c : Thread nD τ).loc main_arg5) := W1_of_ne m ρ c main_arg5 (by decide)
theorem at1_arg6 : W1 m ρ c (Proc.devRef .tc main_arg6) = m ((c : Thread nD τ).loc main_arg6) := W1_of_ne m ρ c main_arg6 (by decide)
theorem at1_arg7 : W1 m ρ c (Proc.devRef .tc main_arg7) = m ((c : Thread nD τ).loc main_arg7) := W1_of_ne m ρ c main_arg7 (by decide)
theorem at1_arg8 : W1 m ρ c (Proc.devRef .tc main_arg8) = m ((c : Thread nD τ).loc main_arg8) := W1_of_ne m ρ c main_arg8 (by decide)
theorem at1_arg9 : W1 m ρ c (Proc.devRef .tc main_arg9) = m ((c : Thread nD τ).loc main_arg9) := W1_of_ne m ρ c main_arg9 (by decide)

/-- Region 0's output buffer holds x · W1. -/
theorem at1_product : W1 m ρ c (Proc.devRef .tc main_v0)
    = dense256 (m ((c : Thread nD τ).loc main_arg0)) (m ((c : Thread nD τ).loc main_arg4)) :=
  (W1_arr m ρ c 2).trans (Tiled0.final (V0 m ρ) c)

/-! ## After the first host stretch -/

theorem at3_arg1 : W3 m ρ c (Proc.devRef .tc main_arg1) = m ((c : Thread nD τ).loc main_arg1) := (stretch1_arg1 (W1 m ρ c)).trans (at1_arg1 m ρ c)
theorem at3_arg2 : W3 m ρ c (Proc.devRef .tc main_arg2) = m ((c : Thread nD τ).loc main_arg2) := (stretch1_arg2 (W1 m ρ c)).trans (at1_arg2 m ρ c)
theorem at3_arg3 : W3 m ρ c (Proc.devRef .tc main_arg3) = m ((c : Thread nD τ).loc main_arg3) := (stretch1_arg3 (W1 m ρ c)).trans (at1_arg3 m ρ c)
theorem at3_arg6 : W3 m ρ c (Proc.devRef .tc main_arg6) = m ((c : Thread nD τ).loc main_arg6) := (stretch1_arg6 (W1 m ρ c)).trans (at1_arg6 m ρ c)
theorem at3_arg7 : W3 m ρ c (Proc.devRef .tc main_arg7) = m ((c : Thread nD τ).loc main_arg7) := (stretch1_arg7 (W1 m ρ c)).trans (at1_arg7 m ρ c)
theorem at3_arg8 : W3 m ρ c (Proc.devRef .tc main_arg8) = m ((c : Thread nD τ).loc main_arg8) := (stretch1_arg8 (W1 m ρ c)).trans (at1_arg8 m ρ c)
theorem at3_arg9 : W3 m ρ c (Proc.devRef .tc main_arg9) = m ((c : Thread nD τ).loc main_arg9) := (stretch1_arg9 (W1 m ρ c)).trans (at1_arg9 m ρ c)

/-- The first hidden layer's values, named. -/
abbrev h1 := hidden (m ((c : Thread nD τ).loc main_arg1)) (m ((c : Thread nD τ).loc main_arg2)) (m ((c : Thread nD τ).loc main_arg3))
  (m ((c : Thread nD τ).loc main_arg5)) (dense256 (m ((c : Thread nD τ).loc main_arg0)) (m ((c : Thread nD τ).loc main_arg4)))

/-- The first hidden layer: the stretch's operations of region 0's product and the arguments. -/
theorem at3_hidden : W3 m ρ c (Proc.devRef .tc main_v17) = h1 m c := by
  refine (stretch1_hidden (W1 m ρ c)).trans ?_
  rw [at1_arg1, at1_arg2, at1_arg3, at1_arg5, at1_product]
  exact hiddenK_eq _ _ _ _ _

/-! ## After region 1 -/

theorem at4_arg1 : W4 m ρ c (Proc.devRef .tc main_arg1) = m ((c : Thread nD τ).loc main_arg1) := (W4_of_ne m ρ c main_arg1 (by decide)).trans (at3_arg1 m ρ c)
theorem at4_arg2 : W4 m ρ c (Proc.devRef .tc main_arg2) = m ((c : Thread nD τ).loc main_arg2) := (W4_of_ne m ρ c main_arg2 (by decide)).trans (at3_arg2 m ρ c)
theorem at4_arg3 : W4 m ρ c (Proc.devRef .tc main_arg3) = m ((c : Thread nD τ).loc main_arg3) := (W4_of_ne m ρ c main_arg3 (by decide)).trans (at3_arg3 m ρ c)
theorem at4_arg7 : W4 m ρ c (Proc.devRef .tc main_arg7) = m ((c : Thread nD τ).loc main_arg7) := (W4_of_ne m ρ c main_arg7 (by decide)).trans (at3_arg7 m ρ c)
theorem at4_arg8 : W4 m ρ c (Proc.devRef .tc main_arg8) = m ((c : Thread nD τ).loc main_arg8) := (W4_of_ne m ρ c main_arg8 (by decide)).trans (at3_arg8 m ρ c)
theorem at4_arg9 : W4 m ρ c (Proc.devRef .tc main_arg9) = m ((c : Thread nD τ).loc main_arg9) := (W4_of_ne m ρ c main_arg9 (by decide)).trans (at3_arg9 m ρ c)

/-- Region 1's output buffer holds h1 · W2. -/
theorem at4_product : W4 m ρ c (Proc.devRef .tc main_v18) = dense256 (h1 m c) (m ((c : Thread nD τ).loc main_arg6)) := by
  refine ((W4_arr m ρ c 2).trans (Tiled1.final (V3 m ρ) c)).trans ?_
  show dense256 (W3 m ρ c (Proc.devRef .tc main_v17)) (W3 m ρ c (Proc.devRef .tc main_arg6)) = _
  rw [at3_hidden, at3_arg6]

/-! ## After the second host stretch -/

theorem at6_arg1 : W6 m ρ c (Proc.devRef .tc main_arg1) = m ((c : Thread nD τ).loc main_arg1) := (stretch2_arg1 (W4 m ρ c)).trans (at4_arg1 m ρ c)
theorem at6_arg2 : W6 m ρ c (Proc.devRef .tc main_arg2) = m ((c : Thread nD τ).loc main_arg2) := (stretch2_arg2 (W4 m ρ c)).trans (at4_arg2 m ρ c)
theorem at6_arg3 : W6 m ρ c (Proc.devRef .tc main_arg3) = m ((c : Thread nD τ).loc main_arg3) := (stretch2_arg3 (W4 m ρ c)).trans (at4_arg3 m ρ c)
theorem at6_arg8 : W6 m ρ c (Proc.devRef .tc main_arg8) = m ((c : Thread nD τ).loc main_arg8) := (stretch2_arg8 (W4 m ρ c)).trans (at4_arg8 m ρ c)
theorem at6_arg9 : W6 m ρ c (Proc.devRef .tc main_arg9) = m ((c : Thread nD τ).loc main_arg9) := (stretch2_arg9 (W4 m ρ c)).trans (at4_arg9 m ρ c)

/-- The second hidden layer's values, named. -/
abbrev h2 := hidden (m ((c : Thread nD τ).loc main_arg1)) (m ((c : Thread nD τ).loc main_arg2)) (m ((c : Thread nD τ).loc main_arg3))
  (m ((c : Thread nD τ).loc main_arg7)) (dense256 (h1 m c) (m ((c : Thread nD τ).loc main_arg6)))

/-- The second hidden layer. -/
theorem at6_hidden : W6 m ρ c (Proc.devRef .tc main_v35) = h2 m c := by
  refine (stretch2_hidden (W4 m ρ c)).trans ?_
  rw [at4_arg1, at4_arg2, at4_arg3, at4_arg7, at4_product]
  exact hiddenK_eq _ _ _ _ _

/-! ## After region 2 -/

theorem at7_arg1 : W7 m ρ c (Proc.devRef .tc main_arg1) = m ((c : Thread nD τ).loc main_arg1) := (W7_of_ne m ρ c main_arg1 (by decide)).trans (at6_arg1 m ρ c)
theorem at7_arg2 : W7 m ρ c (Proc.devRef .tc main_arg2) = m ((c : Thread nD τ).loc main_arg2) := (W7_of_ne m ρ c main_arg2 (by decide)).trans (at6_arg2 m ρ c)
theorem at7_arg3 : W7 m ρ c (Proc.devRef .tc main_arg3) = m ((c : Thread nD τ).loc main_arg3) := (W7_of_ne m ρ c main_arg3 (by decide)).trans (at6_arg3 m ρ c)
theorem at7_arg9 : W7 m ρ c (Proc.devRef .tc main_arg9) = m ((c : Thread nD τ).loc main_arg9) := (W7_of_ne m ρ c main_arg9 (by decide)).trans (at6_arg9 m ρ c)

/-- Region 2's output buffer holds h2 · W3. -/
theorem at7_product : W7 m ρ c (Proc.devRef .tc main_v36) = dense128 (h2 m c) (m ((c : Thread nD τ).loc main_arg8)) := by
  refine ((W7_arr m ρ c 2).trans (Tiled2.final (V6 m ρ) c)).trans ?_
  show dense128 (W6 m ρ c (Proc.devRef .tc main_v35)) (W6 m ρ c (Proc.devRef .tc main_arg8)) = _
  rw [at6_hidden, at6_arg8]

/-! ## After the last host stretch -/

/-- The result buffer at the last boundary holds the network of the argument arrays. -/
theorem result_eq : W8 m ρ c (Proc.devRef .tc main_v52)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (stretch3_output (W7 m ρ c)).trans ?_
  rw [at7_arg1, at7_arg2, at7_arg3, at7_arg9, at7_product]
  exact outputK_eq _ _ _ _ _

end Cert.KernelIdeal.Layers

end
-- ==== Proof.lean ====
/-
  Three stacked graph-convolution layers,  h ↦ max (aggregate (h · W) + b, 0)  twice and  h ↦ aggregate (h · W) + b  last,
  where  aggregate t  adds  adj[e] · t[cols[e], ·]  to row rows[e] over 800000 edges: the kernel computes each dense
  product h · W as a pipelined region (ten tiles of 5000 rows, the operands rounded to bf16 on the way into the
  matrix unit, the products accumulated in f32 from zero) and leaves the aggregation, the bias and the clamp to the host; the
  reference computes the dense products on the host too.

  At the ideal values the two programs are one function of their arguments. A rounding to bf16 is the identity; a tile's
  product into a zero accumulator has at (p, q) the sum over c of tile (p, c) · W (c, q), and row p of tile t is row
  5000·t + p of h, so what each grid point writes back is its block of rows of the whole product h · W, whose entry at
  (r, q) is the same sum (Proof/LibRowBlockDot.lean, Proof/TiledProduct0–2.lean); the ten blocks cover the rows. The host
  operations between and after the regions are the reference's own, operation for operation, so both results are
  Proof/Network.lean's  network  of the argument arrays (Proof/KernelLayers.lean reads the kernel's buffers boundary by
  boundary; the reference's run is its operations' composed term). Only commutation-free identities of finite sums are
  used: the precondition that the inputs are finite is never opened.

  The frames are the generated ones; the idealization rewrote nothing, so  preserves  is trivial.
-/
import proofs.«178316_j91250875171133_1_alg».proof.Defs
import proofs.«178316_j91250875171133_1_alg».proof.Proof.Gen.Kernel
import proofs.«178316_j91250875171133_1_alg».proof.Proof.Gen.Kernel.Frame
import proofs.«178316_j91250875171133_1_alg».proof.Proof.Gen.KernelIdeal
import proofs.«178316_j91250875171133_1_alg».proof.Proof.Gen.KernelIdeal.Frame
import proofs.«178316_j91250875171133_1_alg».proof.Proof.Gen.ReferenceIdeal
import proofs.«178316_j91250875171133_1_alg».proof.Proof.Gen.ReferenceIdeal.Run
import proofs.«178316_j91250875171133_1_alg».proof.Proof.Gen.Pre_finite_inputs
import proofs.«178316_j91250875171133_1_alg».proof.Proof.Network
import proofs.«178316_j91250875171133_1_alg».proof.Proof.KernelRun
import proofs.«178316_j91250875171133_1_alg».proof.Proof.KernelLayers

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the argument arrays in their result buffer: the kernel by its buffers read
    boundary by boundary, the reference because its operations' composed term is the network's definition unfolded. -/
theorem algebraic : Cert.algebraic_KernelIdeal_ReferenceIdeal := by
  intro m ρ m' ρ' _ hagree
  refine ⟨fun c => Cert.ReferenceIdeal.Network.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Layers.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [a0, a1, a2, a3, a4, a5, a6, a7, a8, a9]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
